-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S10 : Shape := ⟨1, ![10]⟩
abbrev S10x273x273 : Shape := ⟨3, ![10, 273, 273]⟩
abbrev S1 : Shape := ⟨1, ![1]⟩
abbrev S_ : Shape := ⟨0, ![]⟩
abbrev S1x273x273 : Shape := ⟨3, ![1, 273, 273]⟩
abbrev S273x273 : Shape := ⟨2, ![273, 273]⟩
abbrev S1x1x1 : Shape := ⟨3, ![1, 1, 1]⟩

abbrev nBuf : Space → Nat
  | .hbm => 2
  | .vmem => 2
  | .smem => 0
  | _ => 0

abbrev bufTy : (tb : Table) → Fin (tcTables nBuf tb) → BufTy
  | .hbm, ⟨0, _⟩ => ⟨S8192x8192, .f32⟩
  | .hbm, ⟨1, _⟩ => ⟨S10, .f32⟩
  | .local _ .vmem, ⟨0, _⟩ => ⟨S10, .f32⟩
  | .local _ .vmem, ⟨1, _⟩ => ⟨S10x273x273, .f32⟩
  | _, _ => ⟨S8192x8192, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

class Facts₀ : Prop where
  inb_S10_S1_0 : ∀ a, (![0] : Fin 1 → Nat) a + S1.size a ≤ S10.size a
  squeezes_S1_S_ : S1.Squeezes S_
  inb_S10x273x273_S1x273x273_0_0_0 : ∀ a, (![0, 0, 0] : Fin 3 → Nat) a + S1x273x273.size a ≤ S10x273x273.size a
  squeezes_S1x273x273_S273x273 : S1x273x273.Squeezes S273x273
  inb_S8192x8192_S273x273_888_888 : ∀ a, (![888, 888] : Fin 2 → Nat) a + S273x273.size a ≤ S8192x8192.size a
  h_S1x273x273 : 0 < S1x273x273.numel
  shapeCasts_S1x273x273_S273x273 : S1x273x273.ShapeCasts S273x273
  shapeCasts_S273x273_S1x273x273 : S273x273.ShapeCasts S1x273x273
  reduces_S1x273x273_S1 : S1x273x273.Reduces [1, 2] S1
  shapeCasts_S1_S1x1x1 : S1.ShapeCasts S1x1x1
  inpos_S1x1x1_p0_0_0 : ∀ a, (![0, 0, 0] : Fin 3 → Nat) a < S1x1x1.size a
  inb_S10_S1_1 : ∀ a, (![1] : Fin 1 → Nat) a + S1.size a ≤ S10.size a
  inb_S10x273x273_S1x273x273_1_0_0 : ∀ a, (![1, 0, 0] : Fin 3 → Nat) a + S1x273x273.size a ≤ S10x273x273.size a
  inb_S8192x8192_S273x273_2936_888 : ∀ a, (![2936, 888] : Fin 2 → Nat) a + S273x273.size a ≤ S8192x8192.size a
  inb_S10_S1_2 : ∀ a, (![2] : Fin 1 → Nat) a + S1.size a ≤ S10.size a
  inb_S10x273x273_S1x273x273_2_0_0 : ∀ a, (![2, 0, 0] : Fin 3 → Nat) a + S1x273x273.size a ≤ S10x273x273.size a
  inb_S8192x8192_S273x273_4984_888 : ∀ a, (![4984, 888] : Fin 2 → Nat) a + S273x273.size a ≤ S8192x8192.size a
  inb_S10_S1_3 : ∀ a, (![3] : Fin 1 → Nat) a + S1.size a ≤ S10.size a
  inb_S10x273x273_S1x273x273_3_0_0 : ∀ a, (![3, 0, 0] : Fin 3 → Nat) a + S1x273x273.size a ≤ S10x273x273.size a
  inb_S8192x8192_S273x273_7032_888 : ∀ a, (![7032, 888] : Fin 2 → Nat) a + S273x273.size a ≤ S8192x8192.size a
  inb_S10_S1_4 : ∀ a, (![4] : Fin 1 → Nat) a + S1.size a ≤ S10.size a
  inb_S10x273x273_S1x273x273_4_0_0 : ∀ a, (![4, 0, 0] : Fin 3 → Nat) a + S1x273x273.size a ≤ S10x273x273.size a
  inb_S8192x8192_S273x273_888_2936 : ∀ a, (![888, 2936] : Fin 2 → Nat) a + S273x273.size a ≤ S8192x8192.size a
  inb_S10_S1_5 : ∀ a, (![5] : Fin 1 → Nat) a + S1.size a ≤ S10.size a
  inb_S10x273x273_S1x273x273_5_0_0 : ∀ a, (![5, 0, 0] : Fin 3 → Nat) a + S1x273x273.size a ≤ S10x273x273.size a
  inb_S8192x8192_S273x273_2936_2936 : ∀ a, (![2936, 2936] : Fin 2 → Nat) a + S273x273.size a ≤ S8192x8192.size a
  inb_S10_S1_6 : ∀ a, (![6] : Fin 1 → Nat) a + S1.size a ≤ S10.size a
  inb_S10x273x273_S1x273x273_6_0_0 : ∀ a, (![6, 0, 0] : Fin 3 → Nat) a + S1x273x273.size a ≤ S10x273x273.size a
  inb_S8192x8192_S273x273_4984_2936 : ∀ a, (![4984, 2936] : Fin 2 → Nat) a + S273x273.size a ≤ S8192x8192.size a
  inb_S10_S1_7 : ∀ a, (![7] : Fin 1 → Nat) a + S1.size a ≤ S10.size a
  inb_S10x273x273_S1x273x273_7_0_0 : ∀ a, (![7, 0, 0] : Fin 3 → Nat) a + S1x273x273.size a ≤ S10x273x273.size a
  inb_S8192x8192_S273x273_7032_2936 : ∀ a, (![7032, 2936] : Fin 2 → Nat) a + S273x273.size a ≤ S8192x8192.size a
  inb_S10_S1_8 : ∀ a, (![8] : Fin 1 → Nat) a + S1.size a ≤ S10.size a
  inb_S10x273x273_S1x273x273_8_0_0 : ∀ a, (![8, 0, 0] : Fin 3 → Nat) a + S1x273x273.size a ≤ S10x273x273.size a
  inb_S8192x8192_S273x273_888_4984 : ∀ a, (![888, 4984] : Fin 2 → Nat) a + S273x273.size a ≤ S8192x8192.size a
  inb_S10_S1_9 : ∀ a, (![9] : Fin 1 → Nat) a + S1.size a ≤ S10.size a
  inb_S10x273x273_S1x273x273_9_0_0 : ∀ a, (![9, 0, 0] : Fin 3 → Nat) a + S1x273x273.size a ≤ S10x273x273.size a
  inb_S8192x8192_S273x273_2936_4984 : ∀ a, (![2936, 4984] : Fin 2 → Nat) a + S273x273.size a ≤ S8192x8192.size a
  concatenates_S1_S1_S1_S1_S1_S1_S1_S1_S1_S1_S10_d0 : Shape.Concatenates [S1, S1, S1, S1, S1, S1, S1, S1, S1, S1] S10 0
  inb_S10_S10_0 : ∀ a, (![0] : Fin 1 → Nat) a + S10.size a ≤ S10.size a
  h_S10 : 0 < S10.numel
  hcc0_scratch1 : 1 + S10.numel ≤ 11
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S10.size a ≤ S10.size a
  hwx0_0 : ∀ i : grid0.Coords, EltTy.bits .f32 = 32 ∨ (Rect.block (s := S10) S10.size (cc0_transform_1 i) (hinb0_0 i)).WholeWords (EltTy.packing .f32)

variable [Facts₀]

abbrev cc0_scratch1 : DmaSems sig S10 := SemArray.consecutive 1 S10 hcc0_scratch1

abbrev win0_0 : Pipeline.Window sig grid0 :=
  Pipeline.Window.ofSpec (Memref.whole main_v0) S10.size cc0_transform_1 reads0_0 true true 1 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S10x2 : Shape := ⟨2, ![10, 2]⟩
abbrev S10x1 : Shape := ⟨2, ![10, 1]⟩
abbrev S10 : Shape := ⟨1, ![10]⟩
abbrev S_ : Shape := ⟨0, ![]⟩
abbrev S10x273x273 : Shape := ⟨3, ![10, 273, 273]⟩

abbrev nBuf : Space → Nat
  | .hbm => 27
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S10x2, .i32⟩
  | .hbm, ⟨2, _⟩ => ⟨S10x1, .i32⟩
  | .hbm, ⟨3, _⟩ => ⟨S10, .i32⟩
  | .hbm, ⟨4, _⟩ => ⟨S10x1, .i32⟩
  | .hbm, ⟨5, _⟩ => ⟨S10, .i32⟩
  | .hbm, ⟨6, _⟩ => ⟨S_, .i32⟩
  | .hbm, ⟨7, _⟩ => ⟨S10, .i32⟩
  | .hbm, ⟨8, _⟩ => ⟨S10, .i1⟩
  | .hbm, ⟨9, _⟩ => ⟨S_, .i32⟩
  | .hbm, ⟨10, _⟩ => ⟨S10, .i32⟩
  | .hbm, ⟨11, _⟩ => ⟨S10, .i32⟩
  | .hbm, ⟨12, _⟩ => ⟨S10, .i32⟩
  | .hbm, ⟨13, _⟩ => ⟨S_, .i32⟩
  | .hbm, ⟨14, _⟩ => ⟨S10, .i32⟩
  | .hbm, ⟨15, _⟩ => ⟨S10, .i1⟩
  | .hbm, ⟨16, _⟩ => ⟨S_, .i32⟩
  | .hbm, ⟨17, _⟩ => ⟨S10, .i32⟩
  | .hbm, ⟨18, _⟩ => ⟨S10, .i32⟩
  | .hbm, ⟨19, _⟩ => ⟨S10, .i32⟩
  | .hbm, ⟨20, _⟩ => ⟨S10x1, .i32⟩
  | .hbm, ⟨21, _⟩ => ⟨S10x1, .i32⟩
  | .hbm, ⟨22, _⟩ => ⟨S10x2, .i32⟩
  | .hbm, ⟨23, _⟩ => ⟨S10x273x273, .f32⟩
  | .hbm, ⟨24, _⟩ => ⟨S10x273x273, .f32⟩
  | .hbm, ⟨25, _⟩ => ⟨S_, .f32⟩
  | .hbm, ⟨26, _⟩ => ⟨S10, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S10x2_S10x1_0_0 : S10x2.Slices ![0, 0] S10x1
  shapeCasts_S10x1_S10 : S10x1.ShapeCasts S10
  slices_S10x2_S10x1_0_1 : S10x2.Slices ![0, 1] S10x1
  bcast_S_S10 : S_.BroadcastsInDim S10 (![] : Fin 0 → Fin S10.rank)
  bcast_S10_S10x1_0 : S10.BroadcastsInDim S10x1 (![0] : Fin 1 → Fin S10x1.rank)
  concatenates_S10x1_S10x1_S10x2_d1 : Shape.Concatenates [S10x1, S10x1] S10x2 1
  reducesTo_S10x273x273_S10_d1_2 : S10x273x273.ReducesTo [1, 2] S10
  h_S_ : 0 < S_.numel
  gather_S8192x8192_S10x2_S10x273x273_12_n_n_n_01_1_273273_wf : GatherDims.WF S8192x8192 S10x2 S10x273x273 [1, 2] [] [] [0, 1] [] 1 ![273, 273]

variable [Facts₀]

def gather_S8192x8192_S10x2_S10x273x273_12_n_n_n_01_1_273273 : GatherDims S8192x8192 S10x2 S10x273x273 where
  offsetDims := [1, 2]
  collapsedSliceDims := []
  operandBatchingDims := []
  startIndicesBatchingDims := []
  startIndexMap := [0, 1]
  indexVectorDim := 1
  sliceSizes := ![273, 273]
  wf := gather_S8192x8192_S10x2_S10x273x273_12_n_n_n_01_1_273273_wf

class Facts : Prop extends Facts₀ where

variable [Facts]
-- ==== Proof.LibDmaLoad.lean ====
/-
  A load of a rectangle of a buffer right after a transfer has landed in that same rectangle (the transfer's
  destination being the rectangle with its unit axes squeezed away) reads the transfer's data, re-indexed in
  row-major order, whatever the buffer held before.
-/
import Idealize.ShloMosaic.Signature.Memref

namespace Cert.LibDmaLoad

open Idealize.ShloMosaic

variable {sig : RefSig} {κ : Kind} {sp : Space} {s : Shape} {e : EltTy} {Val : EltTy → Type}

/-- Reading a view after a write through a row-major re-indexing of it, on every index: the written data at the
    re-indexed position, the earlier contents `g` gone. -/
theorem read_write_reshape (v : View sig κ sp s e) (s' : Shape) (hn : s'.numel = s.numel)
    (g : v.ty.Contents Val) (data : s'.Idx → Val e) :
    v.read Val ((v.reshape s' hn).write Val g data Finset.univ)
      = fun x => data ((Shape.reshapeEquiv hn).symm x) := by
  funext x
  have h := congrFun (View.read_write_univ (v := v.reshape s' hn) g data) ((Shape.reshapeEquiv hn).symm x)
  rw [View.read_apply] at h ⊢
  rw [← h]
  show _ = _root_.cast _ ((View.write Val (v.reshape s' hn) g data Finset.univ)
    (v.emb ((Shape.reshapeEquiv hn) ((Shape.reshapeEquiv hn).symm x))))
  rw [Equiv.apply_symm_apply]

/-- The load of rectangle `R` through a view after a write, on every index, through `R` re-indexed to the shape `s'`. -/
theorem readAt_write_reshape_slice (v : View sig κ sp s e) (R : Rect s) (s' : Shape) (hn : s'.numel = R.shape.numel)
    (g : v.ty.Contents Val) (data : s'.Idx → Val e) :
    v.readAt Val R.toLoadRect (((v.slice R).reshape s' hn).write Val g data Finset.univ)
      = fun x => data ((Shape.reshapeEquiv hn).symm x) :=
  read_write_reshape (v.slice R) s' hn g data

/-- The load of rectangle `R` of a memref after a transfer into `R` squeezed to the shape `s'`. -/
theorem readAt_write_squeezed_slice (m : Memref sig κ sp s e) (R : Rect s) (hR : ∀ a, R.stride a = 1) (s' : Shape)
    (hsq : R.shape.Squeezes s') (g : m.view.ty.Contents Val) (data : s'.Idx → Val e) :
    m.view.readAt Val R.toLoadRect (((m.slice R hR).squeeze s' hsq).view.write Val g data Finset.univ)
      = fun x => data ((Shape.reshapeEquiv hsq.numel_eq).symm x) :=
  read_write_reshape (m.view.slice R) s' hsq.numel_eq g data

end Cert.LibDmaLoad
-- ==== Proof.Spec.lean ====
/-
  The specification both programs meet. The ten classes' frames are 273 × 273 squares of the 8192 × 8192 array,
  laid on a grid of four cells per row (cell side 2048): class `c` sits in cell row `c / 4`, cell column `c % 4`, and
  its frame's corner is the cell's centre less 136 — row `2048 · (c % 4) + 888`, column `2048 · (c / 4) + 888`.
  The result at class `c` is the sum over the frame of the absolute values: `∑ p q, |X (row c + p, col c + q)|`
  on the extended reals, `|x| = max x (−x)`.
-/
import Idealize.ShloMosaic.PureOps.Ideal
import Idealize.ShloMosaic.Lib.ValueIdx

namespace Cert.CropSum

open Idealize.ShloMosaic Idealize.ShloMosaic.ValueIdx

/-- The first row of class `c`'s frame. -/
def rowStart : Fin 10 → Nat := ![888, 2936, 4984, 7032, 888, 2936, 4984, 7032, 888, 2936]
/-- The first column of class `c`'s frame. -/
def colStart : Fin 10 → Nat := ![888, 888, 888, 888, 2936, 2936, 2936, 2936, 4984, 4984]

/-- Every frame lies inside the array. -/
theorem rowStart_le : ∀ c : Fin 10, rowStart c + 273 ≤ 8192 := by decide
theorem colStart_le : ∀ c : Fin 10, colStart c + 273 ≤ 8192 := by decide

/-- Entry `(p, q)` of class `c`'s frame, as an index of the array. -/
def cell (c : Fin 10) (p q : Fin 273) : (⟨2, ![8192, 8192]⟩ : Shape).Idx :=
  ix2 ⟨rowStart c + p.val, by have := rowStart_le c; omega⟩ ⟨colStart c + q.val, by have := colStart_le c; omega⟩

/-- The result: at class `c`, the sum of the absolute values over its frame. -/
noncomputable def patchSums (X : (⟨2, ![8192, 8192]⟩ : Shape).Idx → EReal) : (⟨1, ![10]⟩ : Shape).Idx → EReal :=
  fun j => ∑ p : Fin 273, ∑ q : Fin 273, max (X (cell (j 0) p q)) (-(X (cell (j 0) p q)))

theorem patchSums_apply (X : (⟨2, ![8192, 8192]⟩ : Shape).Idx → EReal) (c : Fin 10) :
    patchSums X (ix1 c) = ∑ p : Fin 273, ∑ q : Fin 273, max (X (cell c p q)) (-(X (cell c p q))) := rfl

end Cert.CropSum
-- ==== Proof.KernelPieces.lean ====
/-
  The idealized kernel's arithmetic, class by class, at the ideal values. The body copies class `c`'s 273 × 273 frame
  of the array into slot `c` of its scratch, loads the slot back as a `[1, 273, 273]` block (the load reads exactly the
  copied data, in row-major order), drops the unit axis, takes absolute values, puts the unit axis back, sums the
  whole block into one entry and extracts it. A sum over every index of the `[1, 273, 273]` block is the sum over
  the `[273, 273]` patch (the two index sets are matched in row-major order), and that is the double sum over the
  rows and columns of the frame.
-/
import proofs.«160109_j60181081752266_1_alg».proof.Proof.Patched.KernelIdeal.Value
import proofs.«160109_j60181081752266_1_alg».proof.Proof.Spec
import Idealize.ShloMosaic.PureOps.Ideal.Laws
import Idealize.ShloMosaic.Lib.Pipeline.Value
import Idealize.ShloMosaic.Lib.ValueIdx
import Idealize.ShloMosaic.Lib.Tactic

set_option Elab.async false

noncomputable section

namespace Cert.KernelIdeal.PatchValue

open Cert.KernelIdeal Cert.KernelIdeal.Gen Cert.KernelIdeal.GenP Cert.KernelIdeal.ValueP Cert.CropSum
open Idealize.ShloMosaic Idealize.ShloMosaic.TcCoe Idealize.SL.Sem Idealize.ShloMosaic.ValueIdx
open Idealize.ShloMosaic.Pipeline (Dat)

/-- The sum of a block's absolute values over the `[273, 273]` patch, the block read at the row-major matching index. -/
abbrev patchAbs (L : Vec Ideal S1x273x273 .f32) : EReal :=
  ∑ y : S273x273.Idx, max (L (Shape.reshapeEquiv shapeCasts_S1x273x273_S273x273 y))
    (-(L (Shape.reshapeEquiv shapeCasts_S1x273x273_S273x273 y)))

/-- Closes `⟨the body's value of a loaded block L⟩ = patchAbs L` once the payloads are unfolded: the extraction and the
    casts are re-indexings, the sum over axes 1 and 2 of a `[1, 273, 273]` block into one entry is the sum over every
    index of the block, and those indices are matched with the patch's in row-major order. -/
local macro "block_abs" L:term : tactic => `(tactic| (
  unfold extractAt shapeCast
  refine (Ideal.multiReduction_add_total _ _ reduces_S1x273x273_S1 (by decide) (.inl rfl) rfl _).trans ?_
  exact Equiv.sum_comp (Shape.reshapeEquiv shapeCasts_S273x273_S1x273x273)
    (fun y => max ($L (Shape.reshapeEquiv shapeCasts_S1x273x273_S273x273 y))
      (-($L (Shape.reshapeEquiv shapeCasts_S1x273x273_S273x273 y))))))

/-! ## Each class's value is the sum of its loaded block's absolute values

The printed body is cut into payloads by position, so the ten classes reach their value through different payloads
(class 6's through two of them, classes 8 and 9 with the final one-entry vector made in another place); unfolded, each is
the same composite of one loaded block. -/

theorem piece0 (L : Vec Ideal S1x273x273 .f32) : (k0_pay12 (k0_pay2 L) : Vec Ideal S1 .f32) (ix1 (0 : Fin 1)) = patchAbs L := by
  simp only [k0_pay12, k0_pay2, broadcast]
  block_abs L

theorem piece1 (L : Vec Ideal S1x273x273 .f32) : (k0_pay13 (k0_pay3 L) : Vec Ideal S1 .f32) (ix1 (0 : Fin 1)) = patchAbs L := by
  simp only [k0_pay13, k0_pay3, broadcast]
  block_abs L

theorem piece2 (L : Vec Ideal S1x273x273 .f32) : (k0_pay14 (k0_pay4 L) : Vec Ideal S1 .f32) (ix1 (0 : Fin 1)) = patchAbs L := by
  simp only [k0_pay14, k0_pay4, broadcast]
  block_abs L

theorem piece3 (L : Vec Ideal S1x273x273 .f32) : (k0_pay15 (k0_pay5 L) : Vec Ideal S1 .f32) (ix1 (0 : Fin 1)) = patchAbs L := by
  simp only [k0_pay15, k0_pay5, broadcast]
  block_abs L

theorem piece4 (L : Vec Ideal S1x273x273 .f32) : (k0_pay16 (k0_pay6 L) : Vec Ideal S1 .f32) (ix1 (0 : Fin 1)) = patchAbs L := by
  simp only [k0_pay16, k0_pay6, broadcast]
  block_abs L

theorem piece5 (L : Vec Ideal S1x273x273 .f32) : (k0_pay17 (k0_pay7 L) : Vec Ideal S1 .f32) (ix1 (0 : Fin 1)) = patchAbs L := by
  simp only [k0_pay17, k0_pay7, broadcast]
  block_abs L

theorem piece6 (L : Vec Ideal S1x273x273 .f32) : (k0_pay18 (k0_pay9 (k0_pay8 L)) : Vec Ideal S1 .f32) (ix1 (0 : Fin 1)) = patchAbs L := by
  simp only [k0_pay18, k0_pay9, k0_pay8, broadcast]
  block_abs L

theorem piece7 (L : Vec Ideal S1x273x273 .f32) : (k0_pay19 (k0_pay10 L) : Vec Ideal S1 .f32) (ix1 (0 : Fin 1)) = patchAbs L := by
  simp only [k0_pay19, k0_pay10, broadcast]
  block_abs L

theorem piece8 (L : Vec Ideal S1x273x273 .f32) : (k0_pay20 L : Vec Ideal S1 .f32) (ix1 (0 : Fin 1)) = patchAbs L := by
  simp only [k0_pay20, broadcast]
  block_abs L

theorem piece9 (L : Vec Ideal S1x273x273 .f32) : (broadcast S1 (k0_pay11 (F := Ideal) L) : Vec Ideal S1 .f32) (ix1 (0 : Fin 1)) = patchAbs L := by
  rw [broadcast_apply]
  simp only [k0_pay11]
  block_abs L

/-- The block loaded after the transfer from the frame with corner `(a, b)` is the transferred patch re-indexed in
    row-major order, and the patch is the array read through the frame's rectangle: the sum of the block's absolute
    values is the double sum over the frame. -/
theorem patchAbs_frame (a b : Nat) (inb : ∀ d, (![a, b] : Fin 2 → Nat) d + S273x273.size d ≤ S8192x8192.size d)
    (ha : a + 273 ≤ 8192) (hb : b + 273 ≤ 8192) (hn : S273x273.numel = S1x273x273.numel)
    (X : (⟨S8192x8192, .f32⟩ : BufTy).Contents (Elt Ideal)) :
    patchAbs (fun x => ReadAs.same.apply
        (View.read (Elt Ideal) ((View.whole main_arg0).slice (Rect.unit ![a, b] ![273, 273] inb)) X)
        ((Shape.reshapeEquiv hn).symm x))
      = ∑ p : Fin 273, ∑ q : Fin 273,
          max (X (ix2 ⟨a + p.val, by omega⟩ ⟨b + q.val, by omega⟩)) (-(X (ix2 ⟨a + p.val, by omega⟩ ⟨b + q.val, by omega⟩))) := by
  unfold patchAbs
  rw [sum_idx2]
  refine Finset.sum_congr rfl fun p _ => Finset.sum_congr rfl fun q _ => ?_
  have key : ∀ v w : EReal, v = w → max v (-v) = max w (-w) := fun v w h => by rw [h]
  refine key _ _ ?_
  have e : (Shape.reshapeEquiv hn).symm (Shape.reshapeEquiv shapeCasts_S1x273x273_S273x273 (ix2 p q)) = ix2 p q :=
    Equiv.symm_apply_apply _ _
  show View.read (Elt Ideal) ((View.whole main_arg0).slice (Rect.unit ![a, b] ![273, 273] inb)) X
    ((Shape.reshapeEquiv hn).symm (Shape.reshapeEquiv shapeCasts_S1x273x273_S273x273 (ix2 p q))) = _
  rw [e]
  show X ((Rect.unit (s := S8192x8192) ![a, b] ![273, 273] inb).emb (ix2 p q)) = _
  congr 1
  funext d
  apply Fin.ext
  match d with
  | ⟨0, _⟩ => show a + 1 * p.val = a + p.val; omega
  | ⟨1, _⟩ => show b + 1 * q.val = b + q.val; omega

theorem hz : (![0] : Fin 1 → Nat) = fun _ => 0 := funext fun a => by fin_cases a; rfl

end Cert.KernelIdeal.PatchValue

end
-- ==== Proof.KernelValue.lean ====
/-
  What the idealized kernel's result array holds after the run, at the ideal values: the specification.
  The ten class sums, laid side by side, are the one block the only grid point writes back; entry `k` of the
  concatenation is class `k`'s piece, and the block — at block index 0, as long as the array — is the whole result array.
-/
import proofs.«160109_j60181081752266_1_alg».proof.Proof.KernelPieces

noncomputable section

namespace Cert.KernelIdeal.PatchValue

open Cert.KernelIdeal Cert.KernelIdeal.Gen Cert.KernelIdeal.GenP Cert.KernelIdeal.ValueP Cert.CropSum
open Idealize.ShloMosaic Idealize.ShloMosaic.TcCoe Idealize.SL.Sem Idealize.ShloMosaic.ValueIdx
open Idealize.ShloMosaic.Pipeline (Dat)

/-- WHAT THE BODY LEAVES in the output's staging buffer is the specification of the array it copies from: entry `k` of
    the ten concatenated one-entry pieces is class `k`'s sum. -/
theorem out_eq (c : Dev nD) (i : grid0.Coords) (arg2 : Memref sig .tc .vmem S10 .f32) (harg2 : arg2.IsWhole)
    (arg3 : Memref sig .tc .vmem S10x273x273 .f32) (harg3 : arg3.IsWhole) (fh0 : HbBuf0 (F := Ideal) c hbM0_0) :
    out0_A_0 c i arg2 harg2 arg3 harg3 fh0 = patchSums fh0 := by
  unfold out0_A_0
  rw [View.read_writes_eq_canon _ _ _ (cover0_A_0 c i arg2 harg2 arg3 harg3 fh0)]
  unfold kernelRun0_A
  dsimp only
  rw [View.canon_unit_zero hz]
  funext j
  obtain ⟨k, rfl⟩ : ∃ k : Fin 10, j = ix1 k := ⟨j 0, eq_ix1 j⟩
  rw [patchSums_apply]
  unfold k0_pay1
  match k with
  | ⟨0, _⟩ =>
    refine Eq.trans (concatenate_apply_piece (t := S10) (0 : Fin 1) _ _ _ 0 (by show 0 < 10; decide) S1 _ rfl rfl 0 rfl (ix1 (0 : Fin 1))
      (fun b hb => absurd (Subsingleton.elim _ _) hb) rfl) ?_
    refine (piece0 _).trans ?_
    exact patchAbs_frame 888 888 inb_S8192x8192_S273x273_888_888 (by omega) (by omega) _ fh0
  | ⟨1, _⟩ =>
    refine Eq.trans (concatenate_apply_piece (t := S10) (0 : Fin 1) _ _ _ 1 (by show 1 < 10; decide) S1 _ rfl rfl 1 rfl (ix1 (0 : Fin 1))
      (fun b hb => absurd (Subsingleton.elim _ _) hb) rfl) ?_
    refine (piece1 _).trans ?_
    exact patchAbs_frame 2936 888 inb_S8192x8192_S273x273_2936_888 (by omega) (by omega) _ fh0
  | ⟨2, _⟩ =>
    refine Eq.trans (concatenate_apply_piece (t := S10) (0 : Fin 1) _ _ _ 2 (by show 2 < 10; decide) S1 _ rfl rfl 2 rfl (ix1 (0 : Fin 1))
      (fun b hb => absurd (Subsingleton.elim _ _) hb) rfl) ?_
    refine (piece2 _).trans ?_
    exact patchAbs_frame 4984 888 inb_S8192x8192_S273x273_4984_888 (by omega) (by omega) _ fh0
  | ⟨3, _⟩ =>
    refine Eq.trans (concatenate_apply_piece (t := S10) (0 : Fin 1) _ _ _ 3 (by show 3 < 10; decide) S1 _ rfl rfl 3 rfl (ix1 (0 : Fin 1))
      (fun b hb => absurd (Subsingleton.elim _ _) hb) rfl) ?_
    refine (piece3 _).trans ?_
    exact patchAbs_frame 7032 888 inb_S8192x8192_S273x273_7032_888 (by omega) (by omega) _ fh0
  | ⟨4, _⟩ =>
    refine Eq.trans (concatenate_apply_piece (t := S10) (0 : Fin 1) _ _ _ 4 (by show 4 < 10; decide) S1 _ rfl rfl 4 rfl (ix1 (0 : Fin 1))
      (fun b hb => absurd (Subsingleton.elim _ _) hb) rfl) ?_
    refine (piece4 _).trans ?_
    exact patchAbs_frame 888 2936 inb_S8192x8192_S273x273_888_2936 (by omega) (by omega) _ fh0
  | ⟨5, _⟩ =>
    refine Eq.trans (concatenate_apply_piece (t := S10) (0 : Fin 1) _ _ _ 5 (by show 5 < 10; decide) S1 _ rfl rfl 5 rfl (ix1 (0 : Fin 1))
      (fun b hb => absurd (Subsingleton.elim _ _) hb) rfl) ?_
    refine (piece5 _).trans ?_
    exact patchAbs_frame 2936 2936 inb_S8192x8192_S273x273_2936_2936 (by omega) (by omega) _ fh0
  | ⟨6, _⟩ =>
    refine Eq.trans (concatenate_apply_piece (t := S10) (0 : Fin 1) _ _ _ 6 (by show 6 < 10; decide) S1 _ rfl rfl 6 rfl (ix1 (0 : Fin 1))
      (fun b hb => absurd (Subsingleton.elim _ _) hb) rfl) ?_
    refine (piece6 _).trans ?_
    exact patchAbs_frame 4984 2936 inb_S8192x8192_S273x273_4984_2936 (by omega) (by omega) _ fh0
  | ⟨7, _⟩ =>
    refine Eq.trans (concatenate_apply_piece (t := S10) (0 : Fin 1) _ _ _ 7 (by show 7 < 10; decide) S1 _ rfl rfl 7 rfl (ix1 (0 : Fin 1))
      (fun b hb => absurd (Subsingleton.elim _ _) hb) rfl) ?_
    refine (piece7 _).trans ?_
    exact patchAbs_frame 7032 2936 inb_S8192x8192_S273x273_7032_2936 (by omega) (by omega) _ fh0
  | ⟨8, _⟩ =>
    refine Eq.trans (concatenate_apply_piece (t := S10) (0 : Fin 1) _ _ _ 8 (by show 8 < 10; decide) S1 _ rfl rfl 8 rfl (ix1 (0 : Fin 1))
      (fun b hb => absurd (Subsingleton.elim _ _) hb) rfl) ?_
    refine (piece8 _).trans ?_
    exact patchAbs_frame 888 4984 inb_S8192x8192_S273x273_888_4984 (by omega) (by omega) _ fh0
  | ⟨9, _⟩ =>
    refine Eq.trans (concatenate_apply_piece (t := S10) (0 : Fin 1) _ _ _ 9 (by show 9 < 10; decide) S1 _ rfl rfl 9 rfl (ix1 (0 : Fin 1))
      (fun b hb => absurd (Subsingleton.elim _ _) hb) rfl) ?_
    refine (piece9 _).trans ?_
    exact patchAbs_frame 2936 4984 inb_S8192x8192_S273x273_2936_4984 (by omega) (by omega) _ fh0

/-! ## From the one block to the array, and the run -/

variable (m : (ℓ : Loc nD τ sig) → Buf (Elt Ideal) ℓ) (ρ : Dev nD → PrngReg)

/-- The result array's contents after the run: the specification of the argument array. -/
abbrev result (c : Dev nD) : Buf (Elt Ideal) ((c : Thread nD τ).loc main_v0) :=
  patchSums (m ((c : Thread nD τ).loc main_arg0))

/-- The output's one block sits at block index 0 (decided over the one grid point). -/
theorem idx_zero : ∀ t : Fin cfg0.N, win0_0.index t (0 : Fin 1) = 0 :=
  (by decide +kernel : ∀ t : Fin grid0.N, win0_0.index t (0 : Fin 1) = 0)

/-- WHAT THE POINT WRITES BACK is its block of the specification: the block starts at entry 0 and is the whole array. -/
theorem flushed_eq (c : Dev nD) (t : Fin cfg0.N) :
    (dats m 0 c).flushed 0 t = ((cfg0.win 0).blk t).view.read (Elt Ideal) (result m c) := by
  rw [flushed0_A, out_eq]
  have h0 := idx_zero t
  funext j
  show patchSums (m ((c : Thread nD τ).loc main_arg0)) _ = patchSums (m ((c : Thread nD τ).loc main_arg0)) (((cfg0.win 0).blk t).view.emb j)
  congr 1
  funext a
  apply Fin.ext
  match a with
  | ⟨0, _⟩ => show (j 0).val = win0_0.index t (0 : Fin 1) * 10 + 1 * (j 0).val; omega

/-- So the result array ends holding the specification: the one point's block covers it. -/
theorem final (c : Dev nD) : (dats m 0 c).arrAt 0 cfg0.N = result m c :=
  (dats m 0 c).arrAt_eq_of_cover 0 (result m c) (fun t _ => flushed_eq m c t) fun i =>
    ⟨t0_0, flush0_0 t0_0, by
      show i ∈ ((View.whole main_v0).slice (win0_0.rect t0_0)).set
      rw [View.set_slice_whole, Rect.mem_set_unit]
      intro a
      have h0 : (i 0 : Nat) < 10 := (i 0).isLt
      match a with
      | ⟨0, _⟩ =>
        show win0_0.index t0_0 0 * win0_0.size 0 ≤ (i 0 : Nat)
          ∧ (i 0 : Nat) < win0_0.index t0_0 0 * win0_0.size 0 + win0_0.xsize (grid0.coords t0_0) 0
        rw [show win0_0.index t0_0 0 * win0_0.size 0 = 0 from by decide +kernel,
          show win0_0.xsize (grid0.coords t0_0) 0 = 10 from by decide +kernel]
        omega⟩

/-- The run, read: the result array at the specification of the argument array, the argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.PatchValue

end
-- ==== Proof.RefRun.lean ====
/-
  The reference's @main as the list of its 26 host operations, and its run read back: every weakly fair execution
  terminates with the result buffer at the operations' composed term of the argument array — the row-and-column
  corners of the ten frames (a literal table, each entry wrapped by the array's extent when negative), the gather of
  the ten 273 × 273 patches at those corners, their absolute values, and the sum of each patch — and the argument
  unchanged.
-/
import proofs.«160109_j60181081752266_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 26 operations, in order. -/
abbrev ops : List (HloOp τ sig (Elt F)) :=
  [ nullary main_c (fun i => lit0 (S10x2.rowMajor i)),
    unary main_c main_v0 ((extractStridedSlice S10x1 ![0, 0] · slices_S10x2_S10x1_0_0) : (⟨S10x2, .i32⟩ : BufTy).Contents (Elt F) → (⟨S10x1, .i32⟩ : BufTy).Contents (Elt F)),
    reshape main_v0 main_v1 rfl shapeCasts_S10x1_S10,
    unary main_c main_v2 ((extractStridedSlice S10x1 ![0, 1] · slices_S10x2_S10x1_0_1) : (⟨S10x2, .i32⟩ : BufTy).Contents (Elt F) → (⟨S10x1, .i32⟩ : BufTy).Contents (Elt F)),
    reshape main_v2 main_v3 rfl shapeCasts_S10x1_S10,
    nullary main_c_0 (constantI S_ 32 0#32),
    unary main_c_0 main_v4 (broadcastInDim S10 ![] bcast_S_S10 : (⟨S_, .i32⟩ : BufTy).Contents (Elt F) → (⟨S10, .i32⟩ : BufTy).Contents (Elt F)),
    binary main_v1 main_v4 main_v5 (cmpi .slt : (⟨S10, .i32⟩ : BufTy).Contents (Elt F) → (⟨S10, .i32⟩ : BufTy).Contents (Elt F) → (⟨S10, .i1⟩ : BufTy).Contents (Elt F)),
    nullary main_c_1 (constantI S_ 32 8192#32),
    unary main_c_1 main_v6 (broadcastInDim S10 ![] bcast_S_S10 : (⟨S_, .i32⟩ : BufTy).Contents (Elt F) → (⟨S10, .i32⟩ : BufTy).Contents (Elt F)),
    binary main_v1 main_v6 main_v7 (addi : (⟨S10, .i32⟩ : BufTy).Contents (Elt F) → (⟨S10, .i32⟩ : BufTy).Contents (Elt F) → (⟨S10, .i32⟩ : BufTy).Contents (Elt F)),
    ternary main_v5 main_v7 main_v1 main_v8 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    nullary main_c_2 (constantI S_ 32 0#32),
    unary main_c_2 main_v9 (broadcastInDim S10 ![] bcast_S_S10 : (⟨S_, .i32⟩ : BufTy).Contents (Elt F) → (⟨S10, .i32⟩ : BufTy).Contents (Elt F)),
    binary main_v3 main_v9 main_v10 (cmpi .slt : (⟨S10, .i32⟩ : BufTy).Contents (Elt F) → (⟨S10, .i32⟩ : BufTy).Contents (Elt F) → (⟨S10, .i1⟩ : BufTy).Contents (Elt F)),
    nullary main_c_3 (constantI S_ 32 8192#32),
    unary main_c_3 main_v11 (broadcastInDim S10 ![] bcast_S_S10 : (⟨S_, .i32⟩ : BufTy).Contents (Elt F) → (⟨S10, .i32⟩ : BufTy).Contents (Elt F)),
    binary main_v3 main_v11 main_v12 (addi : (⟨S10, .i32⟩ : BufTy).Contents (Elt F) → (⟨S10, .i32⟩ : BufTy).Contents (Elt F) → (⟨S10, .i32⟩ : BufTy).Contents (Elt F)),
    ternary main_v10 main_v12 main_v3 main_v13 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v8 main_v14 (broadcastInDim S10x1 ![0] bcast_S10_S10x1_0 : (⟨S10, .i32⟩ : BufTy).Contents (Elt F) → (⟨S10x1, .i32⟩ : BufTy).Contents (Elt F)),
    unary main_v13 main_v15 (broadcastInDim S10x1 ![0] bcast_S10_S10x1_0 : (⟨S10, .i32⟩ : BufTy).Contents (Elt F) → (⟨S10x1, .i32⟩ : BufTy).Contents (Elt F)),
    binary main_v14 main_v15 main_v16 ((fun a b => concatenate S10x2 1 [⟨S10x1, a⟩, ⟨S10x1, b⟩] concatenates_S10x1_S10x1_S10x2_d1) : (⟨S10x1, .i32⟩ : BufTy).Contents (Elt F) → (⟨S10x1, .i32⟩ : BufTy).Contents (Elt F) → (⟨S10x2, .i32⟩ : BufTy).Contents (Elt F)),
    binary main_arg0 main_v16 main_v17 ((fun x i => Host.gather gather_S8192x8192_S10x2_S10x273x273_12_n_n_n_01_1_273273 x i) : (⟨S8192x8192, .f32⟩ : BufTy).Contents (Elt F) → (⟨S10x2, .i32⟩ : BufTy).Contents (Elt F) → (⟨S10x273x273, .f32⟩ : BufTy).Contents (Elt F)),
    unary main_v17 main_v18 (Host.absf : (⟨S10x273x273, .f32⟩ : BufTy).Contents (Elt F) → (⟨S10x273x273, .f32⟩ : BufTy).Contents (Elt F)),
    nullary main_cst (constant S_ .f32 0x00000000#32),
    binary main_v18 main_cst main_v19 ((fun x v => Host.reduceAdd x v reducesTo_S10x273x273_S10_d1_2 h_S_) : (⟨S10x273x273, .f32⟩ : BufTy).Contents (Elt F) → (⟨S_, .f32⟩ : BufTy).Contents (Elt F) → (⟨S10, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., binary_bufs_sub ..⟩

/-- One component (`k = 0`: the row, `k = 1`: the column) of the ten frames' corners, as the reference computes it: column
    `k` of the literal table, each entry replaced by itself plus the array's extent 8192 when it is negative. -/
def wrapped (k : Nat) (hs : S10x2.Slices ![0, k] S10x1) : IVec S10 32 :=
  select
    (cmpi .slt (shapeCast S10 (extractStridedSlice S10x1 ![0, k] (fun i => lit0 (S10x2.rowMajor i)) hs) shapeCasts_S10x1_S10)
      (broadcastInDim S10 ![] bcast_S_S10 (constantI S_ 32 0#32)))
    (addi (shapeCast S10 (extractStridedSlice S10x1 ![0, k] (fun i => lit0 (S10x2.rowMajor i)) hs) shapeCasts_S10x1_S10)
      (broadcastInDim S10 ![] bcast_S_S10 (constantI S_ 32 8192#32)))
    (shapeCast S10 (extractStridedSlice S10x1 ![0, k] (fun i => lit0 (S10x2.rowMajor i)) hs) shapeCasts_S10x1_S10)

/-- The start indices the gather reads: the wrapped rows beside the wrapped columns, `[10, 2]`. -/
def corners : IVec S10x2 32 :=
  concatenate S10x2 1
    [⟨S10x1, broadcastInDim S10x1 ![0] bcast_S10_S10x1_0 (wrapped 0 slices_S10x2_S10x1_0_0)⟩,
     ⟨S10x1, broadcastInDim S10x1 ![0] bcast_S10_S10x1_0 (wrapped 1 slices_S10x2_S10x1_0_1)⟩]
    concatenates_S10x1_S10x1_S10x2_d1

/-- The reference's result as a function of its argument: the sum over each gathered patch of the absolute values. -/
def refTerm (X : FVec F S8192x8192 .f32) : FVec F S10 .f32 :=
  Host.reduceAdd (Host.absf (Host.gather gather_S8192x8192_S10x2_S10x273x273_12_n_n_n_01_1_273273 X corners))
    (constant S_ .f32 0x00000000#32) reducesTo_S10x273x273_S10_d1_2 h_S_

/-- On every device, for any float values, from any memory with zero counters: every weakly fair execution of @main
    terminates with the result at `refTerm` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v19).trans (by after_results; rfl), (h c main_arg0).trans (by after_results)⟩)
    (run_seq scopedRefs_eq scopedSems_eq defs main (fun _ => ops) main_eq (fun _ => ops_sub) m ρ)

end Cert.ReferenceIdeal.RefRun

end
-- ==== Proof.LibPatchSum.lean ====
/-
  Sums over the indices of a three-axis array whose leading coordinate is fixed, written as double sums over
  the two trailing coordinates: the total sum over a `[1, a, b]` array, and the sum over those indices of an
  `[n, a, b]` array that a projection onto the leading axis sends to a given `c`.
-/
import Idealize.ShloMosaic.Lib.ValueIdx

namespace Cert.LibPatchSum

open Idealize.ShloMosaic Idealize.ShloMosaic.ValueIdx

variable {M : Type*} [AddCommMonoid M]

/-- The two trailing coordinates of a rank-3 index. -/
def tail2 {n a b : Nat} (i : (⟨3, ![n, a, b]⟩ : Shape).Idx) : Fin a × Fin b := (i 1, i 2)

/-- The leading coordinate of a rank-3 index. -/
def lead {n a b : Nat} (i : (⟨3, ![n, a, b]⟩ : Shape).Idx) : Fin n := i 0

theorem eq_ix3_lead {n a b : Nat} (i : (⟨3, ![n, a, b]⟩ : Shape).Idx) : ix3 (lead i) (tail2 i).1 (tail2 i).2 = i :=
  (eq_ix3 i).symm

/-- The sum over every index of a `[1, a, b]` array is the double sum over its last two coordinates: the
    leading coordinate can only be `0`. -/
theorem sum_unit_lead {a b : Nat} (f : (⟨3, ![1, a, b]⟩ : Shape).Idx → M) :
    ∑ i, f i = ∑ p : Fin a, ∑ q : Fin b, f (ix3 0 p q) := by
  rw [← Fintype.sum_prod_type' (f := fun p q => f (ix3 0 p q))]
  have h0 : ∀ i : (⟨3, ![1, a, b]⟩ : Shape).Idx, lead i = 0 := fun i => Subsingleton.elim _ _
  refine Fintype.sum_equiv
    { toFun := tail2
      invFun := fun pq => ix3 0 pq.1 pq.2
      left_inv := fun i => by rw [← h0 i]; exact eq_ix3_lead i
      right_inv := fun pq => rfl } _ _ (fun i => ?_)
  show f i = f (ix3 0 (tail2 i).1 (tail2 i).2)
  rw [← h0 i, eq_ix3_lead]

/-- Of an `[n, a, b]` array, the indices that a map `drop` reading the leading coordinate sends to `c` are
    the `(c, p, q)`: the sum over them is the double sum over `p` and `q`. -/
theorem sum_filter_lead {n a b : Nat} (drop : (⟨3, ![n, a, b]⟩ : Shape).Idx → (⟨1, ![n]⟩ : Shape).Idx)
    (hdrop : ∀ i, drop i = ix1 (lead i)) (g : (⟨3, ![n, a, b]⟩ : Shape).Idx → M) (c : Fin n)
    [DecidablePred fun i => drop i = ix1 c] :
    ∑ i ∈ Finset.univ.filter (fun i => drop i = ix1 c), g i = ∑ p : Fin a, ∑ q : Fin b, g (ix3 c p q) := by
  rw [← Fintype.sum_prod_type' (f := fun p q => g (ix3 c p q))]
  have hlead : ∀ i, drop i = ix1 c → lead i = c := fun i h => by
    rw [hdrop i] at h
    exact congrFun h 0
  refine Finset.sum_nbij' tail2 (fun pq => ix3 c pq.1 pq.2)
    (fun _ _ => Finset.mem_univ _) (fun pq _ => ?_) (fun i hi => ?_) (fun _ _ => rfl) (fun i hi => ?_)
  · rw [Finset.mem_filter]
    exact ⟨Finset.mem_univ _, hdrop _⟩
  · rw [Finset.mem_filter] at hi
    show ix3 c (tail2 i).1 (tail2 i).2 = i
    rw [← hlead i hi.2]; exact eq_ix3_lead i
  · rw [Finset.mem_filter] at hi
    show g i = g (ix3 c (tail2 i).1 (tail2 i).2)
    rw [← hlead i hi.2, eq_ix3_lead]

end Cert.LibPatchSum
-- ==== Proof.LibCropGather.lean ====
/-
  The `stablehlo.gather` that a batch of `dynamic_slice`s of a matrix lowers to, read at an index: operand
  `[N0, N1]`, start indices `[E, 2]` (one corner per batch entry, the index vector on axis 1), result `[E, h, w]`
  with offset axes 1 and 2 and slice sizes `[h, w]`. Result element `(c, p, q)` is the operand at the corner
  of entry `c` — each component read as a signed integer and clamped so that the slice fits — plus `(p, q)`.
-/
import Idealize.ShloMosaic.Lib.ValueIdx

namespace Cert.LibCropGather

open Idealize.ShloMosaic Idealize.ShloMosaic.ValueIdx

/-- Those dimension numbers; their conditions `wf` are decided on a program's literal shapes. -/
abbrev cropDims (N0 N1 E h w : Nat)
    (wf : GatherDims.WF ⟨2, ![N0, N1]⟩ ⟨2, ![E, 2]⟩ ⟨3, ![E, h, w]⟩ [1, 2] [] [] [0, 1] [] 1 ![h, w]) :
    GatherDims ⟨2, ![N0, N1]⟩ ⟨2, ![E, 2]⟩ ⟨3, ![E, h, w]⟩ where
  offsetDims := [1, 2]
  collapsedSliceDims := []
  operandBatchingDims := []
  startIndicesBatchingDims := []
  startIndexMap := [0, 1]
  indexVectorDim := 1
  sliceSizes := ![h, w]
  wf := wf

variable {α : Type}

/-- THE GATHER READ AT `(c, p, q)`: the operand at row `min corner₀ (N0 − h) + p` and column
    `min corner₁ (N1 − w) + q`, the corner's components read signed off the start indices at `(c, 0)` and `(c, 1)`. -/
theorem gather_crop_apply {N0 N1 E h w wd : Nat}
    (wf : GatherDims.WF ⟨2, ![N0, N1]⟩ ⟨2, ![E, 2]⟩ ⟨3, ![E, h, w]⟩ [1, 2] [] [] [0, 1] [] 1 ![h, w])
    (hh : h ≤ N0) (hw : w ≤ N1)
    (x : (⟨2, ![N0, N1]⟩ : Shape).Idx → α) (idx : IVec ⟨2, ![E, 2]⟩ wd) (c : Fin E) (p : Fin h) (q : Fin w) :
    Host.gather (cropDims N0 N1 E h w wf) x idx (ix3 c p q)
      = x (ix2 ⟨min (idx (ix2 c 0)).toInt.toNat (N0 - h) + p.val, by omega⟩
              ⟨min (idx (ix2 c 1)).toInt.toNat (N1 - w) + q.val, by omega⟩) := by
  unfold Host.gather
  congr 1
  funext a
  refine Fin.ext ?_
  have hk : ∀ a : Fin 2, a ∈ (cropDims N0 N1 E h w wf).sKept := fun a =>
    ((cropDims N0 N1 E h w wf).mem_sKept a).2 ⟨List.not_mem_nil, List.not_mem_nil⟩
  match a with
  | ⟨0, _⟩ =>
    show (cropDims N0 N1 E h w wf).start (ix3 c p q) idx 0 + (cropDims N0 N1 E h w wf).batchCoord (ix3 c p q) 0
      + (cropDims N0 N1 E h w wf).offCoord (ix3 c p q) 0 = _
    rw [GatherDims.batchCoord_eq_zero _ _ _ List.not_mem_nil]
    have hoff : (cropDims N0 N1 E h w wf).offCoord (ix3 c p q) 0 = p.val := by
      unfold GatherDims.offCoord; rw [dif_pos (hk 0)]; rfl
    rw [hoff, Nat.add_zero]
    unfold GatherDims.start
    rw [dif_pos (show (0 : Fin 2) ∈ (cropDims N0 N1 E h w wf).startIndexMap from by simp)]
    have hsi : (cropDims N0 N1 E h w wf).siIdx (ix3 c p q) ⟨List.idxOf (0 : Fin 2) (cropDims N0 N1 E h w wf).startIndexMap,
        List.idxOf_lt_length_iff.2 (by simp)⟩ = ix2 c 0 := by
      funext b; refine Fin.ext ?_
      match b with
      | ⟨0, _⟩ => rfl
      | ⟨1, _⟩ => rfl
    rw [hsi]
    rfl
  | ⟨1, _⟩ =>
    show (cropDims N0 N1 E h w wf).start (ix3 c p q) idx 1 + (cropDims N0 N1 E h w wf).batchCoord (ix3 c p q) 1
      + (cropDims N0 N1 E h w wf).offCoord (ix3 c p q) 1 = _
    rw [GatherDims.batchCoord_eq_zero _ _ _ List.not_mem_nil]
    have hoff : (cropDims N0 N1 E h w wf).offCoord (ix3 c p q) 1 = q.val := by
      unfold GatherDims.offCoord; rw [dif_pos (hk 1)]; rfl
    rw [hoff, Nat.add_zero]
    unfold GatherDims.start
    rw [dif_pos (show (1 : Fin 2) ∈ (cropDims N0 N1 E h w wf).startIndexMap from by simp)]
    have hsi : (cropDims N0 N1 E h w wf).siIdx (ix3 c p q) ⟨List.idxOf (1 : Fin 2) (cropDims N0 N1 E h w wf).startIndexMap,
        List.idxOf_lt_length_iff.2 (by simp)⟩ = ix2 c 1 := by
      funext b; refine Fin.ext ?_
      match b with
      | ⟨0, _⟩ => rfl
      | ⟨1, _⟩ => rfl
    rw [hsi]
    rfl

end Cert.LibCropGather
-- ==== Proof.RefValue.lean ====
/-
  The reference's result is the specification: at the ideal values, the sum over dimensions 1 and 2 of the absolute
  values of the gathered patches, read at class `c`, is `0 +` the sum over those indices of the `[10, 273, 273]` array
  whose leading coordinate is `c` — the double sum over the patch — and the gathered patch's entry `(c, p, q)` is the
  array at the class's corner plus `(p, q)`: the corners evaluate to the frames' first rows and columns (none is
  negative, so none is wrapped, and every frame fits, so none is clamped).
-/
import proofs.«160109_j60181081752266_1_alg».proof.Proof.RefRun
import proofs.«160109_j60181081752266_1_alg».proof.Proof.Spec
import proofs.«160109_j60181081752266_1_alg».proof.Proof.LibPatchSum
import proofs.«160109_j60181081752266_1_alg».proof.Proof.LibCropGather
import Idealize.ShloMosaic.PureOps.Ideal.Laws

noncomputable section

namespace Cert.ReferenceIdeal.RefValue

open Cert.ReferenceIdeal Cert.ReferenceIdeal.Gen Cert.ReferenceIdeal.RefRun Cert.CropSum
open Idealize.ShloMosaic Idealize.ShloMosaic.ValueIdx

/-- The corners' row components are the frames' first rows … -/
theorem corners_row : ∀ c : Fin 10, (corners (ix2 c 0)).toInt.toNat = rowStart c := by decide
/-- … and their column components the frames' first columns. -/
theorem corners_col : ∀ c : Fin 10, (corners (ix2 c 1)).toInt.toNat = colStart c := by decide

/-- Entry `(c, p, q)` of the gathered patches is the array at entry `(p, q)` of class `c`'s frame. -/
theorem gather_apply (X : FVec Ideal S8192x8192 .f32) (c : Fin 10) (p q : Fin 273) :
    Host.gather gather_S8192x8192_S10x2_S10x273x273_12_n_n_n_01_1_273273 X corners (ix3 c p q) = X (cell c p q) := by
  have h := Cert.LibCropGather.gather_crop_apply (N0 := 8192) (N1 := 8192) (E := 10) (h := 273) (w := 273)
    gather_S8192x8192_S10x2_S10x273x273_12_n_n_n_01_1_273273_wf (by decide) (by decide) X corners c p q
  refine h.trans (congrArg X ?_)
  have hr := corners_row c
  have hc := corners_col c
  have hrl := rowStart_le c
  have hcl := colStart_le c
  funext a
  match a with
  | ⟨0, _⟩ =>
    refine Fin.ext ?_
    show min (corners (ix2 c 0)).toInt.toNat (8192 - 273) + p.val = rowStart c + p.val
    rw [hr]; omega
  | ⟨1, _⟩ =>
    refine Fin.ext ?_
    show min (corners (ix2 c 1)).toInt.toNat (8192 - 273) + q.val = colStart c + q.val
    rw [hc]; omega

/-- Dropping axes 1 and 2 of an index of the patches leaves its class. -/
theorem drop_eq (i : S10x273x273.Idx) :
    reducesTo_S10x273x273_S10_d1_2.drop i = ix1 (Cert.LibPatchSum.lead i) := by
  funext b
  match b with
  | ⟨0, _⟩ => exact Fin.ext (Shape.ReducesTo.drop_apply_val_of_eq _ i 0 0)

/-- THE REFERENCE IS THE SPECIFICATION. -/
theorem refTerm_eq (X : FVec Ideal S8192x8192 .f32) : refTerm (F := Ideal) X = patchSums X := by
  funext j
  obtain ⟨c, rfl⟩ : ∃ c : Fin 10, j = ix1 c := ⟨j 0, eq_ix1 j⟩
  rw [patchSums_apply]
  show Ideal.hostReduceAdd reducesTo_S10x273x273_S10_d1_2
    (Host.absf (Host.gather gather_S8192x8192_S10x2_S10x273x273_12_n_n_n_01_1_273273 X corners))
    (Ideal.ofBits .f32 0x00000000#32) (ix1 c) = _
  unfold Ideal.hostReduceAdd
  rw [Ideal.ofBits_zero_f32, zero_add, Cert.LibPatchSum.sum_filter_lead _ drop_eq _ c]
  refine Finset.sum_congr rfl fun p _ => Finset.sum_congr rfl fun q _ => ?_
  show max (Host.gather gather_S8192x8192_S10x2_S10x273x273_12_n_n_n_01_1_273273 X corners (ix3 c p q))
    (-(Host.gather gather_S8192x8192_S10x2_S10x273x273_12_n_n_n_01_1_273273 X corners (ix3 c p q))) = _
  rw [gather_apply]

end Cert.ReferenceIdeal.RefValue

end
-- ==== Proof.lean ====
/-
  The proof of `Cert.Claim`: the three frames, `preserves` and `algebraic`.

  Both programs compute, for each of ten classes, the sum of the absolute values of a 273 × 273 frame of the
  8192 × 8192 argument array (Proof/Spec.lean states it: `patchSums`). The kernel copies each frame into its scratch
  and sums the loaded block; the reference gathers the ten frames at corners it reads off a literal table and reduces
  each patch with a sum from zero. On the extended reals both are the same finite sum of the same entries — only the
  index sets differ (a `[1, 273, 273]` block summed whole against the indices of a `[10, 273, 273]` array with a fixed
  leading coordinate), and a re-indexing of a finite sum needs no finiteness: the precondition is never opened.

  The ideal pass rewrote nothing, so `preserves` is `True`. The kernel's frames are the class-R frame certificates
  (the runs in the patched copies under Proof/Patched/), the reference's frame is its run with the result dropped.
-/
import proofs.«160109_j60181081752266_1_alg».proof.Defs
import proofs.«160109_j60181081752266_1_alg».proof.Proof.Gen.Kernel
import proofs.«160109_j60181081752266_1_alg».proof.Proof.Gen.KernelIdeal
import proofs.«160109_j60181081752266_1_alg».proof.Proof.Gen.ReferenceIdeal
import proofs.«160109_j60181081752266_1_alg».proof.Proof.Gen.Pre_finite_inputs
import proofs.«160109_j60181081752266_1_alg».proof.Proof.Patched.Kernel.Frame
import proofs.«160109_j60181081752266_1_alg».proof.Proof.KernelValue
import proofs.«160109_j60181081752266_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

theorem preserves : Cert.preserves_Kernel_KernelIdeal := trivial

/-- At the ideal values the kernel's result array ends at the specification of its argument, and the reference's at
    its own term of an argument that agrees, which is the specification too. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.PatchValue.result m c, Cert.KernelIdeal.PatchValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
